-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x8192x16 : Shape := ⟨4, ![64, 4, 8192, 16]⟩
abbrev S_ : Shape := ⟨0, ![]⟩

class Facts : Prop where
  bcast_S_S64x4x8192x16 : S_.BroadcastsInDim S64x4x8192x16 (![] : Fin 0 → Fin S64x4x8192x16.rank)
  reducesTo_S64x4x8192x16_S_d0_1_2_3 : S64x4x8192x16.ReducesTo [0, 1, 2, 3] S_
  h_S_ : 0 < S_.numel

variable [Facts]

def fn {F : FTy → Type} [FloatOps F] (main_arg0 : FVec F S64x4x8192x16 .f32) : IVec S_ 1 :=
  let main_v0 : FVec F S64x4x8192x16 .f32 := Host.absf main_arg0
  let main_cst : FVec F S_ .f32 := constant S_ .f32 0x7F800000#32
  let main_v1 : FVec F S64x4x8192x16 .f32 := broadcastInDim S64x4x8192x16 ![] bcast_S_S64x4x8192x16 main_cst
  let main_v2 : IVec S64x4x8192x16 1 := cmpf .olt main_v0 main_v1
  let main_c : IVec S_ 1 := constantI S_ 1 1#1
  let main_v3 : IVec S_ 1 := (fun x v => Host.reduce IntOp.andi x v reducesTo_S64x4x8192x16_S_d0_1_2_3 h_S_) main_v2 main_c
  main_v3
-- ==== Kernel.lean ====
abbrev S64x4x8192x16 : Shape := ⟨4, ![64, 4, 8192, 16]⟩
abbrev S256x8192x16 : Shape := ⟨3, ![256, 8192, 16]⟩
abbrev S256x16x16 : Shape := ⟨3, ![256, 16, 16]⟩
abbrev S8x8192x16 : Shape := ⟨3, ![8, 8192, 16]⟩
abbrev S8x16x16 : Shape := ⟨3, ![8, 16, 16]⟩
abbrev S8x16 : Shape := ⟨2, ![8, 16]⟩
abbrev S8x1x16 : Shape := ⟨3, ![8, 1, 16]⟩
abbrev S64x4x16x16 : Shape := ⟨4, ![64, 4, 16, 16]⟩

abbrev nBuf : Space → Nat
  | .hbm => 4
  | .vmem => 4
  | .smem => 0
  | _ => 0

abbrev bufTy : (tb : Table) → Fin (tcTables nBuf tb) → BufTy
  | .hbm, ⟨0, _⟩ => ⟨S64x4x8192x16, .f32⟩
  | .hbm, ⟨1, _⟩ => ⟨S256x8192x16, .f32⟩
  | .hbm, ⟨2, _⟩ => ⟨S256x16x16, .f32⟩
  | .hbm, ⟨3, _⟩ => ⟨S64x4x16x16, .f32⟩
  | .local _ .vmem, ⟨0, _⟩ => ⟨S8x8192x16, .f32⟩
  | .local _ .vmem, ⟨1, _⟩ => ⟨S8x8192x16, .f32⟩
  | .local _ .vmem, ⟨2, _⟩ => ⟨S8x16x16, .f32⟩
  | .local _ .vmem, ⟨3, _⟩ => ⟨S8x16x16, .f32⟩
  | _, _ => ⟨S64x4x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x4x8192x16_S256x8192x16 : S64x4x8192x16.ShapeCasts S256x8192x16
  inb_S8x8192x16_S8x8192x16_0_0_0 : ∀ a, (![0, 0, 0] : Fin 3 → Nat) a + S8x8192x16.size a ≤ S8x8192x16.size a
  h_S8x8192x16 : 0 < S8x8192x16.numel
  shapeCasts_S8x8192x16_S8x8192x16 : S8x8192x16.ShapeCasts S8x8192x16
  reduces_S8x8192x16_S8x16 : S8x8192x16.Reduces [1] S8x16
  shapeCasts_S8x16_S8x1x16 : S8x16.ShapeCasts S8x1x16
  broadcasts_S8x1x16_S8x8192x16 : S8x1x16.Broadcasts S8x8192x16
  inb_S8x16x16_S8x16x16_0_0_0 : ∀ a, (![0, 0, 0] : Fin 3 → Nat) a + S8x16x16.size a ≤ S8x16x16.size a
  h_S8x16x16 : 0 < S8x16x16.numel
  shapeCasts_S256x16x16_S64x4x16x16 : S256x16x16.ShapeCasts S64x4x16x16
  dot_S8x8192x16_S8x8192x16_S8x16x16_1_1_2_2_0_0_wf : DotDims.WF S8x8192x16 S8x8192x16 S8x16x16 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192x16.size a ≤ S256x8192x16.size a
  hwx0_0 : ∀ i : grid0.Coords, EltTy.bits .f32 = 32 ∨ (Rect.block (s := S256x8192x16) S8x8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x16.size a ≤ S256x16x16.size a
  hwx0_1 : ∀ i : grid0.Coords, EltTy.bits .f32 = 32 ∨ (Rect.block (s := S256x16x16) S8x16x16.size (cc0_transform_1 i) (hinb0_1 i)).WholeWords (EltTy.packing .f32)

variable [Facts₀]

def dot_S8x8192x16_S8x8192x16_S8x16x16_1_1_2_2_0_0 : DotDims S8x8192x16 S8x8192x16 S8x16x16 where
  lhsContracting := [1]
  rhsContracting := [1]
  lhsNonContracting := [2]
  rhsNonContracting := [2]
  lhsBatch := [0]
  rhsBatch := [0]
  wf := dot_S8x8192x16_S8x8192x16_S8x16x16_1_1_2_2_0_0_wf

abbrev win0_0 : Pipeline.Window sig grid0 :=
  Pipeline.Window.ofSpec (Memref.whole main_v0) S8x8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4x8192x16 : Shape := ⟨4, ![64, 4, 8192, 16]⟩
abbrev S_ : Shape := ⟨0, ![]⟩
abbrev S64x4x16 : Shape := ⟨3, ![64, 4, 16]⟩
abbrev S64x4x1x16 : Shape := ⟨4, ![64, 4, 1, 16]⟩
abbrev S64x4x16x16 : Shape := ⟨4, ![64, 4, 16, 16]⟩

abbrev nBuf : Space → Nat
  | .hbm => 13
  | .vmem => 0
  | .smem => 0
  | _ => 0

abbrev bufTy : (tb : Table) → Fin (tcTables nBuf tb) → BufTy
  | .hbm, ⟨0, _⟩ => ⟨S64x4x8192x16, .f32⟩
  | .hbm, ⟨1, _⟩ => ⟨S_, .f32⟩
  | .hbm, ⟨2, _⟩ => ⟨S64x4x16, .f32⟩
  | .hbm, ⟨3, _⟩ => ⟨S64x4x1x16, .f32⟩
  | .hbm, ⟨4, _⟩ => ⟨S_, .f32⟩
  | .hbm, ⟨5, _⟩ => ⟨S64x4x1x16, .f32⟩
  | .hbm, ⟨6, _⟩ => ⟨S64x4x1x16, .f32⟩
  | .hbm, ⟨7, _⟩ => ⟨S64x4x8192x16, .f32⟩
  | .hbm, ⟨8, _⟩ => ⟨S64x4x8192x16, .f32⟩
  | .hbm, ⟨9, _⟩ => ⟨S64x4x16x16, .f32⟩
  | .hbm, ⟨10, _⟩ => ⟨S_, .f32⟩
  | .hbm, ⟨11, _⟩ => ⟨S64x4x16x16, .f32⟩
  | .hbm, ⟨12, _⟩ => ⟨S64x4x16x16, .f32⟩
  | _, _ => ⟨S64x4x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S64x4x8192x16_S64x4x16_d2 : S64x4x8192x16.ReducesTo [2] S64x4x16
  h_S_ : 0 < S_.numel
  bcast_S64x4x16_S64x4x1x16_0_1_3 : S64x4x16.BroadcastsInDim S64x4x1x16 (![0, 1, 3] : Fin 3 → Fin S64x4x1x16.rank)
  bcast_S_S64x4x1x16 : S_.BroadcastsInDim S64x4x1x16 (![] : Fin 0 → Fin S64x4x1x16.rank)
  bcast_S64x4x1x16_S64x4x8192x16_0_1_2_3 : S64x4x1x16.BroadcastsInDim S64x4x8192x16 (![0, 1, 2, 3] : Fin 4 → Fin S64x4x8192x16.rank)
  bcast_S_S64x4x16x16 : S_.BroadcastsInDim S64x4x16x16 (![] : Fin 0 → Fin S64x4x16x16.rank)
  dot_S64x4x8192x16_S64x4x8192x16_S64x4x16x16_2_2_3_3_01_01_wf : DotDims.WF S64x4x8192x16 S64x4x8192x16 S64x4x16x16 [2] [2] [3] [3] [0, 1] [0, 1]

variable [Facts₀]

def dot_S64x4x8192x16_S64x4x8192x16_S64x4x16x16_2_2_3_3_01_01 : DotDims S64x4x8192x16 S64x4x8192x16 S64x4x16x16 where
  lhsContracting := [2]
  rhsContracting := [2]
  lhsNonContracting := [3]
  rhsNonContracting := [3]
  lhsBatch := [0, 1]
  rhsBatch := [0, 1]
  wf := dot_S64x4x8192x16_S64x4x8192x16_S64x4x16x16_2_2_3_3_01_01_wf

class Facts : Prop extends Facts₀ where

variable [Facts]
-- ==== Proof.Cov.lean ====
/-
  The sample covariance of two columns of observations, on the extended reals, and its two array forms.

  For observations indexed by a finite type, `cov n d u v` is
      ( Σ_k (u k − (Σ_l u l) / n) · (v k − (Σ_l v l) / n) ) / d :
  each column centred by its mean (its sum over `n`), the centred products summed, the sum divided by `d`.
  With `n` the number of observations and `d` one less it is the unbiased sample covariance.

  `cov4 x` is the array [64, 4, 16, 16] whose entry (b, c, p, q) is that covariance, over the 8192 observations
  t, of columns p and q of the matrix x(b, c, ·, ·); `cov3 y` is the same for 256 stacked problems,
  [256, 8192, 16] → [256, 16, 16]. Stacking the leading pair (b, c) ↦ 4 b + c — the row-major reshape
  [64, 4] → [256], which leaves the observation and column coordinates alone — carries one form to the
  other (`reshape_cov3`): entry (4 b + c, p, q) of the stacked result only reads rows of problem (b, c).
-/
import Idealize.ShloMosaic.PureOps.Ideal
import Idealize.ShloMosaic.Lib.ValueIdx
import Idealize.ShloMosaic.Lib.Pipeline.Value

noncomputable section

namespace Cert.Cov

open Idealize.ShloMosaic Idealize.ShloMosaic.ValueIdx
open scoped BigOperators

/-- The covariance of the columns `u`, `v`: centred by the means `(Σ u) / n`, `(Σ v) / n`, the products summed,
    the sum divided by `d`. Division is the extended reals' (`Ideal.div`). -/
def cov {ι : Type} [Fintype ι] (n d : EReal) (u v : ι → EReal) : EReal :=
  Ideal.div (∑ k, (u k - Ideal.div (∑ l, u l) n) * (v k - Ideal.div (∑ l, v l) n)) d

/-- The number of observations, as the f32 word 8192.0 denotes it. -/
abbrev nObs : EReal := Ideal.ofBits .f32 0x46000000#32
/-- One less, as the f32 word 8191.0 denotes it. -/
abbrev nLess : EReal := Ideal.ofBits .f32 0x45FFF800#32

/-- Entry (b, c, p, q) of the four-axis form. -/
def covAt4 (x : (⟨4, ![64, 4, 8192, 16]⟩ : Shape).Idx → EReal) (b : Fin 64) (c : Fin 4) (p q : Fin 16) : EReal :=
  cov nObs nLess (fun k : Fin 8192 => x (ix4 b c k p)) (fun k : Fin 8192 => x (ix4 b c k q))

/-- The four-axis form: one covariance matrix per (b, c). -/
def cov4 (x : (⟨4, ![64, 4, 8192, 16]⟩ : Shape).Idx → EReal) : (⟨4, ![64, 4, 16, 16]⟩ : Shape).Idx → EReal :=
  fun i => covAt4 x (i 0) (i 1) (i 2) (i 3)

/-- Entry (r, p, q) of the stacked form. -/
def covAt3 (y : (⟨3, ![256, 8192, 16]⟩ : Shape).Idx → EReal) (r : Fin 256) (p q : Fin 16) : EReal :=
  cov nObs nLess (fun k : Fin 8192 => y (ix3 r k p)) (fun k : Fin 8192 => y (ix3 r k q))

/-- The stacked form: one covariance matrix per stacked problem r. -/
def cov3 (y : (⟨3, ![256, 8192, 16]⟩ : Shape).Idx → EReal) : (⟨3, ![256, 16, 16]⟩ : Shape).Idx → EReal :=
  fun j => covAt3 y (j 0) (j 1) (j 2)

theorem cov4_ix (x : (⟨4, ![64, 4, 8192, 16]⟩ : Shape).Idx → EReal) (b : Fin 64) (c : Fin 4) (p q : Fin 16) :
    cov4 x (ix4 b c p q) = covAt4 x b c p q := rfl

theorem cov3_ix (y : (⟨3, ![256, 8192, 16]⟩ : Shape).Idx → EReal) (r : Fin 256) (p q : Fin 16) :
    cov3 y (ix3 r p q) = covAt3 y r p q := rfl

/-- The stacked input at (4 b + c, k, s) is the input at (b, c, k, s): the two have one row-major position. -/
theorem stack_apply (x : (⟨4, ![64, 4, 8192, 16]⟩ : Shape).Idx → EReal)
    (h : (⟨4, ![64, 4, 8192, 16]⟩ : Shape).ShapeCasts ⟨3, ![256, 8192, 16]⟩)
    (b : Fin 64) (c : Fin 4) (k : Fin 8192) (s : Fin 16) (hr : 4 * b.val + c.val < 256) :
    shapeCast ⟨3, ![256, 8192, 16]⟩ x h (ix3 (⟨4 * b.val + c.val, hr⟩ : Fin 256) k s) = x (ix4 b c k s) := by
  refine shapeCast_apply x h _ _ ?_
  rw [Shape.rowMajor_val_four, Shape.rowMajor_val_three]
  show ((b.val * 4 + c.val) * 8192 + k.val) * 16 + s.val = ((4 * b.val + c.val) * 8192 + k.val) * 16 + s.val
  omega

/-- Stacking, the stacked covariance, unstacking: the four-axis covariance. -/
theorem reshape_cov3 (x : (⟨4, ![64, 4, 8192, 16]⟩ : Shape).Idx → EReal)
    (h1 : (⟨4, ![64, 4, 8192, 16]⟩ : Shape).ShapeCasts ⟨3, ![256, 8192, 16]⟩)
    (h2 : (⟨3, ![256, 16, 16]⟩ : Shape).ShapeCasts ⟨4, ![64, 4, 16, 16]⟩) :
    shapeCast ⟨4, ![64, 4, 16, 16]⟩ (cov3 (shapeCast ⟨3, ![256, 8192, 16]⟩ x h1)) h2 = cov4 x := by
  funext i
  obtain ⟨b, c, p, q, rfl⟩ : ∃ (b : Fin 64) (c : Fin 4) (p q : Fin 16), i = ix4 b c p q :=
    ⟨i 0, i 1, i 2, i 3, eq_ix4 i⟩
  have hr : 4 * b.val + c.val < 256 := by omega
  refine (shapeCast_apply _ h2 (ix4 b c p q) (ix3 (⟨4 * b.val + c.val, hr⟩ : Fin 256) p q) ?_).trans ?_
  · rw [Shape.rowMajor_val_three, Shape.rowMajor_val_four]
    show ((4 * b.val + c.val) * 16 + p.val) * 16 + q.val = ((b.val * 4 + c.val) * 16 + p.val) * 16 + q.val
    omega
  · rw [cov3_ix, cov4_ix]
    unfold covAt3 covAt4
    simp only [stack_apply x h1 b c _ _ hr]

end Cert.Cov

end
-- ==== Proof.RefCov.lean ====
/-
  The reference computes the four-axis covariance.

  Read one operation at a time, its result at (b, c, p, q) is
      ( Σ_k (x(b,c,k,p) − (0 + Σ_l x(b,c,l,p)) / 8192) · (x(b,c,k,q) − (0 + Σ_l x(b,c,l,q)) / 8192) ) / 8191 :
  the sum over the observation axis from the initial value 0, the mean broadcast back along that axis, the
  centred array contracted with itself over the observations with (b, c) as batch axes, and the quotient by
  8191. The initial 0 drops out of the sum, and what is left is `Cov.cov4` entry by entry.
-/
import proofs.«168687_j65592740544960_1_alg».proof.Proof.Gen.ReferenceIdeal.Read
import proofs.«168687_j65592740544960_1_alg».proof.Proof.Cov

noncomputable section

namespace Cert.ReferenceIdeal.RefValue

open Cert.ReferenceIdeal Cert.ReferenceIdeal.Gen Cert.ReferenceIdeal.Read
open Idealize.ShloMosaic Idealize.ShloMosaic.ValueIdx Cert.Cov
open scoped BigOperators

/-- The left factor of the contraction at (b, c, p, q) and observation k sits at (b, c, k, p). -/
theorem lidx_ix (b : Fin 64) (c : Fin 4) (p q : Fin 16) (k : Fin 8192) :
    lidx_main_v6 (ix4 b c p q) k = ix4 b c k p :=
  funext fun a => Fin.ext (by match a with | ⟨0, _⟩ => rfl | ⟨1, _⟩ => rfl | ⟨2, _⟩ => rfl | ⟨3, _⟩ => rfl)

/-- The right factor sits at (b, c, k, q). -/
theorem ridx_ix (b : Fin 64) (c : Fin 4) (p q : Fin 16) (k : Fin 8192) :
    ridx_main_v6 (ix4 b c p q) k = ix4 b c k q :=
  funext fun a => Fin.ext (by match a with | ⟨0, _⟩ => rfl | ⟨1, _⟩ => rfl | ⟨2, _⟩ => rfl | ⟨3, _⟩ => rfl)

/-- The mean subtracted at (b, c, k, s) sums the entries (b, c, l, s) over the observations l. -/
theorem mean_ix (b : Fin 64) (c : Fin 4) (k : Fin 8192) (s : Fin 16) (l : Fin 8192) :
    idx_main_v0 (idx_main_v1 (idx_main_v4 (ix4 b c k s))) l = ix4 b c l s :=
  funext fun a => Fin.ext (by match a with | ⟨0, _⟩ => rfl | ⟨1, _⟩ => rfl | ⟨2, _⟩ => rfl | ⟨3, _⟩ => rfl)

/-- The centred array at (b, c, k, s): the entry less its column's mean over the observations. -/
theorem centred_ix (x : (⟨S64x4x8192x16, .f32⟩ : BufTy).Contents (Elt Ideal)) (b : Fin 64) (c : Fin 4) (k : Fin 8192) (s : Fin 16) :
    val_main_v5 (F := Ideal) x (ix4 b c k s)
      = x (ix4 b c k s) - Ideal.div (∑ l : Fin 8192, x (ix4 b c l s)) nObs := by
  rw [val_main_v5_apply, val_main_v4_apply, val_main_v3_apply, val_main_v1_apply, val_main_v0_apply, val_main_v2_apply,
    val_main_cst_0_apply, val_main_cst_apply]
  simp only [Ideal.subf_def, Ideal.hostDivf_def, Ideal.ofBits_def, Ideal.ofBits_zero_f32, zero_add, mean_ix]

/-- THE REFERENCE'S RESULT is the four-axis covariance of its argument. -/
theorem ref_is_cov4 (x : (⟨S64x4x8192x16, .f32⟩ : BufTy).Contents (Elt Ideal)) :
    val_main_v8 (F := Ideal) x = cov4 x := by
  funext i
  obtain ⟨b, c, p, q, rfl⟩ : ∃ (b : Fin 64) (c : Fin 4) (p q : Fin 16), i = ix4 b c p q :=
    ⟨i 0, i 1, i 2, i 3, eq_ix4 i⟩
  rw [cov4_ix, val_main_v8_apply, val_main_v6_apply, val_main_v7_apply, val_main_cst_1_apply]
  simp only [lidx_ix, ridx_ix, centred_ix, Ideal.hostDivf_def, Ideal.ofBits_def]
  rfl

end Cert.ReferenceIdeal.RefValue

end
-- ==== Proof.Body.lean ====
/-
  The kernel body on one block of eight stacked problems computes their eight covariance matrices.

  On a block X of shape [8, 8192, 16] the body sums each column over the observations (a reduction over the
  middle axis), divides by 8192, repeats the resulting means along the observations, subtracts them from X,
  contracts the centred block with itself over the observations — the problem index r a batch axis, so that
  entry (r, p, q) is Σ_k Xc(r,k,p) · Xc(r,k,q) — into a zero accumulator, and divides by 8191. So its
  result at (r, p, q) is the covariance of columns p and q of problem r of the block (`pay_ix`).
-/
import proofs.«168687_j65592740544960_1_alg».proof.Proof.Gen.KernelIdeal.Skeleton
import proofs.«168687_j65592740544960_1_alg».proof.Proof.Cov
import Idealize.ShloMosaic.PureOps.Ideal.Laws

noncomputable section

namespace Cert.KernelIdeal.Body

open Cert.KernelIdeal Cert.KernelIdeal.Gen
open Idealize.ShloMosaic Idealize.ShloMosaic.ValueIdx Cert.Cov
open scoped BigOperators

/-! ## The layout steps of the block, read at an index -/

/-- The sum over the middle axis at (r, s) is the sum over k of the entries (r, k, s). -/
theorem colsum_ix (v : FVec Ideal S8x8192x16 .f32) (h : S8x8192x16.Reduces [1] S8x16) (hφ : FKind.Formats .f32)
    (hacc : (0x00000000#32 : BitVec 32) = FKind.add.neutral .f32 hφ) (r : Fin 8) (s : Fin 16) :
    multiReduction .add [1] S8x16 v 0x00000000#32 h hφ hacc (ix2 r s) = ∑ k : Fin 8192, v (ix3 r k s) := by
  refine (Ideal.multiReduction_add_single v _ h hφ hacc (ix2 r s)).trans ?_
  refine Finset.sum_congr rfl fun k _ => congrArg v ?_
  exact funext fun a => Fin.ext (by match a with | ⟨0, _⟩ => rfl | ⟨1, _⟩ => rfl | ⟨2, _⟩ => rfl)

/-- A unit middle axis put back: [8, 16] → [8, 1, 16] at (r, 0, s) is the entry (r, s). -/
theorem keepdims_ix (v : FVec Ideal S8x16 .f32) (h : S8x16.ShapeCasts S8x1x16) (r : Fin 8) (s : Fin 16) :
    shapeCast S8x1x16 v h (ix3 r (0 : Fin 1) s) = v (ix2 r s) := by
  refine shapeCast_apply v h _ _ ?_
  rw [Shape.rowMajor_val_two, Shape.rowMajor_val_three]
  show r.val * 16 + s.val = (r.val * 1 + 0) * 16 + s.val
  omega

/-- The means repeated along the observations: [8, 1, 16] → [8, 8192, 16] at (r, k, s) is the entry (r, 0, s). -/
theorem rows_ix (v : FVec Ideal S8x1x16 .f32) (h : S8x1x16.Broadcasts S8x8192x16) (r : Fin 8) (k : Fin 8192) (s : Fin 16) :
    broadcastTo S8x8192x16 v h (ix3 r k s) = v (ix3 r (0 : Fin 1) s) := by
  refine broadcastTo_apply v h _ _ fun a => ?_
  match a with
  | ⟨0, _⟩ => show r.val = if (8 : Nat) = 1 then 0 else r.val; rw [if_neg (by decide)]
  | ⟨1, _⟩ => show 0 = if (1 : Nat) = 1 then 0 else k.val; rw [if_pos rfl]
  | ⟨2, _⟩ => show s.val = if (16 : Nat) = 1 then 0 else s.val; rw [if_neg (by decide)]

/-! ## The contraction over the observations, problem by problem -/

/-- The body's contraction: axis 0 the batch, axis 1 contracted, axis 2 of each operand kept. -/
abbrev gram := dot_S8x8192x16_S8x8192x16_S8x16x16_1_1_2_2_0_0

theorem lhs_0 (i : S8x16x16.Idx) (z : gram.contr.Idx) : (gram.lhsIdx i z 0).val = (i 0).val := by
  unfold DotDims.lhsIdx
  rw [dif_pos (show (0 : Fin S8x8192x16.rank) ∈ gram.lhsBatch by decide)]
  rfl
theorem lhs_1 (i : S8x16x16.Idx) (z : gram.contr.Idx) : (gram.lhsIdx i z 1).val = (z ⟨0, by decide⟩).val :=
  gram.lhsIdx_val_of_single rfl i z
theorem lhs_2 (i : S8x16x16.Idx) (z : gram.contr.Idx) : (gram.lhsIdx i z 2).val = (i 1).val := by
  unfold DotDims.lhsIdx
  rw [dif_neg (show ¬(2 : Fin S8x8192x16.rank) ∈ gram.lhsBatch by decide),
    dif_pos (show (2 : Fin S8x8192x16.rank) ∈ gram.lhsNonContracting by decide)]
  rfl
theorem rhs_0 (i : S8x16x16.Idx) (z : gram.contr.Idx) : (gram.rhsIdx i z 0).val = (i 0).val := by
  unfold DotDims.rhsIdx
  rw [dif_pos (show (0 : Fin S8x8192x16.rank) ∈ gram.rhsBatch by decide)]
  rfl
theorem rhs_1 (i : S8x16x16.Idx) (z : gram.contr.Idx) : (gram.rhsIdx i z 1).val = (z ⟨0, by decide⟩).val :=
  gram.rhsIdx_val_of_single rfl i z
theorem rhs_2 (i : S8x16x16.Idx) (z : gram.contr.Idx) : (gram.rhsIdx i z 2).val = (i 2).val := by
  unfold DotDims.rhsIdx
  rw [dif_neg (show ¬(2 : Fin S8x8192x16.rank) ∈ gram.rhsBatch by decide),
    dif_pos (show (2 : Fin S8x8192x16.rank) ∈ gram.rhsNonContracting by decide)]
  rfl

/-- Into the zero accumulator, entry (r, p, q) is the sum over the observations k of l(r,k,p) · r(r,k,q). -/
theorem gram_ix (l r' : FVec Ideal S8x8192x16 .f32) (r : Fin 8) (p q : Fin 16) :
    matmul gram none l r' (constant S8x16x16 .f32 0x00000000#32) (ix3 r p q)
      = ∑ k : Fin 8192, l (ix3 r k p) * r' (ix3 r k q) := by
  simp only [matmul]
  rw [Ideal.matmul_constant_zero_apply, ← Equiv.sum_comp (contrEquiv1 gram 8192 rfl rfl).symm]
  refine Finset.sum_congr rfl fun k _ => ?_
  have hk := contrEquiv1_symm_val gram 8192 rfl rfl k
  have el : gram.lhsIdx (ix3 r p q) ((contrEquiv1 gram 8192 rfl rfl).symm k) = ix3 r k p := funext fun a => Fin.ext (by
    match a with
    | ⟨0, _⟩ => exact lhs_0 _ _
    | ⟨1, _⟩ => exact (lhs_1 _ _).trans hk
    | ⟨2, _⟩ => exact lhs_2 _ _)
  have er : gram.rhsIdx (ix3 r p q) ((contrEquiv1 gram 8192 rfl rfl).symm k) = ix3 r k q := funext fun a => Fin.ext (by
    match a with
    | ⟨0, _⟩ => exact rhs_0 _ _
    | ⟨1, _⟩ => exact (rhs_1 _ _).trans hk
    | ⟨2, _⟩ => exact rhs_2 _ _)
  rw [el, er]

/-! ## The body's arithmetic -/

/-- The block less its columns' means over the observations, as the body computes it. -/
def centre (X : FVec Ideal S8x8192x16 .f32) : FVec Ideal S8x8192x16 .f32 :=
  subf (shapeCast S8x8192x16 X shapeCasts_S8x8192x16_S8x8192x16)
    (broadcastTo S8x8192x16
      (divf (shapeCast S8x1x16 (multiReduction .add [1] S8x16 (shapeCast S8x8192x16 X shapeCasts_S8x8192x16_S8x8192x16)
          0x00000000#32 reduces_S8x8192x16_S8x16 (.inl rfl) rfl) shapeCasts_S8x16_S8x1x16)
        (broadcast S8x1x16 (Scalar.ofBits .f32 0x46000000#32)))
      broadcasts_S8x1x16_S8x8192x16)

/-- The centred block at (r, k, s): the entry less the mean of column s of problem r. -/
theorem centre_ix (X : FVec Ideal S8x8192x16 .f32) (r : Fin 8) (k : Fin 8192) (s : Fin 16) :
    centre X (ix3 r k s) = X (ix3 r k s) - Ideal.div (∑ l : Fin 8192, X (ix3 r l s)) nObs := by
  unfold centre
  rw [subf_apply, shapeCast_self, rows_ix, divf_apply, keepdims_ix]
  exact congrArg (fun z => X (ix3 r k s) - Ideal.div z nObs) (colsum_ix X _ _ _ r s)

/-- The stored value is the centred block contracted with itself, over 8191. -/
theorem pay_eq (X : FVec Ideal S8x8192x16 .f32) :
    k0_pay1 (F := Ideal) X
      = divf (matmul gram none (centre X) (centre X) (constant S8x16x16 .f32 0x00000000#32))
          (broadcast S8x16x16 (Scalar.ofBits .f32 0x45FFF800#32)) := rfl

/-- THE BODY'S RESULT at (r, p, q): the covariance of columns p and q of problem r of the block. -/
theorem pay_ix (X : FVec Ideal S8x8192x16 .f32) (r : Fin 8) (p q : Fin 16) :
    k0_pay1 (F := Ideal) X (ix3 r p q)
      = cov nObs nLess (fun k : Fin 8192 => X (ix3 r k p)) (fun k : Fin 8192 => X (ix3 r k q)) := by
  rw [pay_eq, divf_apply, gram_ix]
  simp only [centre_ix]
  rfl

end Cert.KernelIdeal.Body

end
-- ==== Proof.Blocks.lean ====
/-
  From blocks to the array: the region leaves the stacked covariance of the stacked input.

  The grid has 32 points. Point t fetches problems 8 t … 8 t + 7 of the stacked input — block (t, 0, 0) of
  [256, 8192, 16] in blocks of [8, 8192, 16] — and writes back block (t, 0, 0) of the stacked result
  [256, 16, 16] in blocks of [8, 16, 16]. The body's result on the fetched block is, entry by entry, the
  covariance of the block's problems (Body.lean), and problem r of block t is problem 8 t + r of the input:
  so what point t writes back is block t of `cov3` of the input (`flushed_eq`). Every row i of the result
  lies in the block of point i / 8, so the 32 blocks cover the array and it ends as `cov3` of the input.
-/
import proofs.«168687_j65592740544960_1_alg».proof.Proof.Gen.KernelIdeal.Frame
import proofs.«168687_j65592740544960_1_alg».proof.Proof.Body
import Idealize.ShloMosaic.Lib.Pipeline.Value

noncomputable section

namespace Cert.KernelIdeal.Blocks

open Cert.KernelIdeal Cert.KernelIdeal.Gen Cert.KernelIdeal.Body
open Idealize.ShloMosaic Idealize.ShloMosaic.TcCoe Idealize.ShloMosaic.ValueIdx Idealize.SL.Sem Cert.Cov
open Idealize.ShloMosaic.Pipeline (Dat)
open scoped BigOperators

variable (m : (ℓ : Loc nD τ sig) → Buf (Elt Ideal) ℓ)

theorem zero3 : (![0, 0, 0] : Fin 3 → Nat) = fun _ => 0 := funext fun a => by fin_cases a <;> rfl

/-- Both windows' blocks at point t are block (t, 0, 0) of their arrays. -/
theorem block_of_point : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- On a block X whose problem r is problem 8 T + r of the stacked array Y, the body's result at a block
    index j is the stacked covariance of Y at the array index i under j. -/
theorem body_is_block (Y : S256x8192x16.Idx → EReal) (X : FVec Ideal S8x8192x16 .f32) (T : Nat)
    (hX : ∀ (r : Fin 8) (k : Fin 8192) (s : Fin 16) (h : 8 * T + r.val < 256),
      X (ix3 r k s) = Y (ix3 (⟨8 * T + r.val, h⟩ : Fin 256) k s))
    (j : S8x16x16.Idx) (i : S256x16x16.Idx)
    (h0 : (i 0).val = 8 * T + (j 0).val) (h1 : (i 1).val = (j 1).val) (h2 : (i 2).val = (j 2).val) :
    k0_pay1 (F := Ideal) X j = cov3 Y i := by
  obtain ⟨r, p, q, rfl⟩ : ∃ (r : Fin 8) (p q : Fin 16), j = ix3 r p q := ⟨j 0, j 1, j 2, eq_ix3 j⟩
  have hi0 : (i 0).val < 256 := (i 0).isLt
  have h0' : (i 0).val = 8 * T + r.val := h0
  have hR : 8 * T + r.val < 256 := by omega
  have hi : i = ix3 (⟨8 * T + r.val, hR⟩ : Fin 256) p q := funext fun a => Fin.ext (by
    match a with
    | ⟨0, _⟩ => exact h0
    | ⟨1, _⟩ => exact h1
    | ⟨2, _⟩ => exact h2)
  subst hi
  rw [pay_ix, cov3_ix]
  unfold covAt3
  simp only [hX _ _ _ hR]

/-- The fetched block at point t: problem r of the block is problem 8 t + r of the stacked input. -/
theorem fetched_ix (c : Dev nD) (t : Fin cfg0.N) (r : Fin 8) (k : Fin 8192) (s : Fin 16) (h : 8 * t.val + r.val < 256) :
    (iblk m c 0 t : Vec Ideal S8x8192x16 .f32) (ix3 r k s)
      = (V m c main_v0 : S256x8192x16.Idx → EReal) (ix3 (⟨8 * t.val + r.val, h⟩ : Fin 256) k s) := by
  obtain ⟨e0, e1, e2, -, -, -⟩ := block_of_point t
  unfold iblk
  rw [View.read_apply]
  show V m c main_v0 _ = V m c main_v0 _
  refine congrArg (V m c main_v0) (funext fun a => Fin.ext ?_)
  match a with
  | ⟨0, _⟩ => show win0_0.index t (0 : Fin 3) * 8 + 1 * r.val = 8 * t.val + r.val; rw [e0]; omega
  | ⟨1, _⟩ => show win0_0.index t (1 : Fin 3) * 8192 + 1 * k.val = k.val; rw [e1]; omega
  | ⟨2, _⟩ => show win0_0.index t (2 : Fin 3) * 16 + 1 * s.val = s.val; rw [e2]; omega

/-- WHAT POINT t WRITES BACK is block t of the stacked covariance of the stacked input. -/
theorem flushed_eq (c : Dev nD) (t : Fin cfg0.N) :
    (dats m 0 c).flushed 1 t = ((cfg0.win 1).blk t).view.read (Elt Ideal) (cov3 (V m c main_v0)) := by
  show (cfg0.win 1).cut (grid0.coords t) ((dats m 0 c).after 1 t) = _
  rw [after0_1]
  unfold out0_1
  rw [View.canon_unit_zero zero3]
  simp only [View.ld_unit_zero (S := S8x8192x16) zero3]
  obtain ⟨-, -, -, e0, e1, e2⟩ := block_of_point t
  funext j
  show k0_pay1 (F := Ideal) (iblk m c 0 t) j = cov3 (V m c main_v0) (((cfg0.win 1).blk t).view.emb j)
  refine body_is_block (V m c main_v0) (iblk m c 0 t) t.val (fun r k s h => fetched_ix m c t r k s h) j _ ?_ ?_ ?_
  · show win0_1.index t (0 : Fin 3) * 8 + 1 * (j 0).val = 8 * t.val + (j 0).val; rw [e0]; omega
  · show win0_1.index t (1 : Fin 3) * 16 + 1 * (j 1).val = (j 1).val; rw [e1]; omega
  · show win0_1.index t (2 : Fin 3) * 16 + 1 * (j 2).val = (j 2).val; rw [e2]; omega

/-- An index of the result is in point t's block iff each coordinate is in the block's range on its axis. -/
theorem mem_block (t : Fin cfg0.N) (i : S256x16x16.Idx) :
    i ∈ ((cfg0.win 1).blk t).view.set ↔ ∀ a : Fin 3, win0_1.index t a * S8x16x16.size a ≤ (i a).val
      ∧ (i a).val < win0_1.index t a * S8x16x16.size a + S8x16x16.size a := by
  show i ∈ ((View.whole main_v1).slice (win0_1.rect t)).set ↔ _
  rw [View.set_slice_whole, Rect.mem_set_unit]
  exact Iff.rfl

/-- Row i of the result is written back by point i / 8. -/
theorem covered (i : S256x16x16.Idx) :
    ∃ t : Fin cfg0.N, (cfg0.win 1).flush t = true ∧ i ∈ ((cfg0.win 1).blk t).view.set := by
  have hN : cfg0.N = 32 := N_0
  have hi0 : (i 0).val < 256 := (i 0).isLt
  have hi1 : (i 1).val < 16 := (i 1).isLt
  have hi2 : (i 2).val < 16 := (i 2).isLt
  have ht : (i 0).val / 8 < cfg0.N := by rw [hN]; omega
  refine ⟨⟨(i 0).val / 8, ht⟩, flush0_1 _, ?_⟩
  obtain ⟨-, -, -, e0, e1, e2⟩ := block_of_point ⟨(i 0).val / 8, ht⟩
  rw [mem_block]
  intro a
  match a with
  | ⟨0, _⟩ =>
    show win0_1.index ⟨(i 0).val / 8, ht⟩ (0 : Fin 3) * 8 ≤ (i 0).val ∧ (i 0).val < win0_1.index ⟨(i 0).val / 8, ht⟩ (0 : Fin 3) * 8 + 8
    rw [e0]; show (i 0).val / 8 * 8 ≤ (i 0).val ∧ (i 0).val < (i 0).val / 8 * 8 + 8; omega
  | ⟨1, _⟩ =>
    show win0_1.index ⟨(i 0).val / 8, ht⟩ (1 : Fin 3) * 16 ≤ (i 1).val ∧ (i 1).val < win0_1.index ⟨(i 0).val / 8, ht⟩ (1 : Fin 3) * 16 + 16
    rw [e1]; omega
  | ⟨2, _⟩ =>
    show win0_1.index ⟨(i 0).val / 8, ht⟩ (2 : Fin 3) * 16 ≤ (i 2).val ∧ (i 2).val < win0_1.index ⟨(i 0).val / 8, ht⟩ (2 : Fin 3) * 16 + 16
    rw [e2]; omega

/-- THE RESULT ARRAY OF THE REGION: the stacked covariance of the stacked input as the region finds it. -/
theorem region_result (c : Dev nD) : (dats m 0 c).arrAt 1 cfg0.N = cov3 (V m c main_v0) :=
  (dats m 0 c).arrAt_eq_of_cover 1 (cov3 (V m c main_v0)) (fun t _ => flushed_eq m c t) covered

end Cert.KernelIdeal.Blocks

end
-- ==== Proof.KernelValue.lean ====
/-
  The kernel's program computes the four-axis covariance of its argument.

  Around the region the program only re-lays arrays: before it, the argument [64, 4, 8192, 16] is stacked to
  [256, 8192, 16] (the leading pair (b, c) to 4 b + c); after it, the region's result [256, 16, 16] is
  unstacked to [64, 4, 16, 16]. The region turns the stacked input into its stacked covariance (Blocks.lean),
  and stacking, the stacked covariance and unstacking compose to the four-axis covariance (`Cov.reshape_cov3`).
-/
import proofs.«168687_j65592740544960_1_alg».proof.Proof.Gen.KernelIdeal.Frame
import proofs.«168687_j65592740544960_1_alg».proof.Proof.Blocks
import Idealize.ShloMosaic.Lib.StableHlo.Run

noncomputable section

namespace Cert.KernelIdeal.KernelValue

open Cert.KernelIdeal Cert.KernelIdeal.Gen Cert.KernelIdeal.Blocks
open Idealize.ShloMosaic Idealize.ShloMosaic.TcCoe Idealize.ShloMosaic.ValueIdx Idealize.SL.Sem Cert.Cov
open Idealize.ShloMosaic.StableHlo

variable (m : (ℓ : Loc nD τ sig) → Buf (Elt Ideal) ℓ) (ρ : Dev nD → PrngReg)

/-- The region finds the argument stacked. -/
theorem stacked_input (c : Dev nD) :
    (V m c main_v0 : S256x8192x16.Idx → EReal)
      = shapeCast S256x8192x16 (m ((c : Thread nD τ).loc main_arg0)) shapeCasts_S64x4x8192x16_S256x8192x16 := by
  show StableHlo.after hostOps0 (fun b => m (c, b)) (Proc.devRef .tc main_v0) = _
  after_results
  rfl

/-- The program's result: the region's array unstacked, which is the four-axis covariance of the argument. -/
theorem unstacked_result (c : Dev nD) :
    (Pipeline.afterTail₀ cfgs (dats m) 0 (V0 m) [hostOps1] c main_v2 : S64x4x16x16.Idx → EReal)
      = cov4 (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = cov3 (V m c main_v0) :=
    (Pipeline.withArrays_arr spec0 launch0.win.arr_inj c _ _ 1).trans (region_result m c)
  show shapeCast S64x4x16x16 (Pipeline.withArrays (cfgs 0).spec c (V0 m c) (fun w => (dats m 0 c).arrAt w (cfgs 0).N)
      (Proc.devRef .tc main_v1)) shapeCasts_S256x16x16_S64x4x16x16 = _
  rw [hw, stacked_input]
  exact reshape_cov3 _ _ _

/-- THE KERNEL'S RUN, READ: every weakly fair execution terminates with the result array at the four-axis
    covariance of the argument, the argument unchanged. -/
theorem run : θ_run defs (onTc (τ := τ) (main (F := Ideal))) ⟨m, fun _ => 0, ρ⟩ fun r => ∀ c : Dev nD,
      r.2.mem ((c.tc : Thread nD τ).loc main_v2) = cov4 (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (unstacked_result m c),
        ((h c).2 main_arg0 (Pipeline.mem_restRefs_of main_arg0 (by decide) (by decide))).trans (W_main_arg0 m (dats m) c)⟩)
    (run_main m ρ)

end Cert.KernelIdeal.KernelValue

end
-- ==== Proof.lean ====
/-
  The proof of `Cert.Claim`: a Pallas kernel computing, for each of 64 × 4 matrices of 8192 observations
  of 16 variables, the 16 × 16 unbiased sample covariance, against the jnp reference.

  Both programs compute, at every (b, c, p, q),
      ( Σ_k (x(b,c,k,p) − (Σ_l x(b,c,l,p)) / 8192) · (x(b,c,k,q) − (Σ_l x(b,c,l,q)) / 8192) ) / 8191 ,
  with the same f32 words for 8192 and 8191 and a division (never a reciprocal) in both places:
  `Cov.cov4` of the argument. The reference does so on the whole four-axis array, with (b, c) as the batch
  axes of its contraction. The kernel stacks (b, c) to one axis of 256 problems, runs a grid of 32 points of
  eight problems each — every point centring its block and contracting it with itself over the
  observations —, and unstacks the result. On the extended reals nothing separates the two but the
  arrangement: the same sums over the same 8192 observations, the reference's initial 0 of its sum and the
  kernel's zero accumulator both dropping out. No law of arithmetic beyond 0 + a = a is used, so the
  precondition (finite inputs) is never opened.

  The modules: Cov.lean (the covariance and its two array forms, and stacking between them); RefCov.lean
  (the reference's result is `cov4`); Body.lean (the kernel body on a block); Blocks.lean (the region's
  array from its 32 blocks); KernelValue.lean (the kernel's run, read). The three frames are the generated
  ones (the reference's its generated run with the result dropped); the idealization rewrote nothing, so
  `preserves` is trivial.
-/
import proofs.«168687_j65592740544960_1_alg».proof.Defs
import proofs.«168687_j65592740544960_1_alg».proof.Proof.Gen.Kernel
import proofs.«168687_j65592740544960_1_alg».proof.Proof.Gen.Kernel.Skeleton
import proofs.«168687_j65592740544960_1_alg».proof.Proof.Gen.Kernel.Launch
import proofs.«168687_j65592740544960_1_alg».proof.Proof.Gen.Kernel.Points
import proofs.«168687_j65592740544960_1_alg».proof.Proof.Gen.Kernel.Frame
import proofs.«168687_j65592740544960_1_alg».proof.Proof.Gen.KernelIdeal
import proofs.«168687_j65592740544960_1_alg».proof.Proof.Gen.KernelIdeal.Skeleton
import proofs.«168687_j65592740544960_1_alg».proof.Proof.Gen.KernelIdeal.Launch
import proofs.«168687_j65592740544960_1_alg».proof.Proof.Gen.KernelIdeal.Points
import proofs.«168687_j65592740544960_1_alg».proof.Proof.Gen.KernelIdeal.Frame
import proofs.«168687_j65592740544960_1_alg».proof.Proof.Gen.ReferenceIdeal
import proofs.«168687_j65592740544960_1_alg».proof.Proof.Gen.ReferenceIdeal.Run
import proofs.«168687_j65592740544960_1_alg».proof.Proof.Gen.ReferenceIdeal.Read
import proofs.«168687_j65592740544960_1_alg».proof.Proof.Gen.Pre_finite_inputs
import proofs.«168687_j65592740544960_1_alg».proof.Proof.RefCov
import proofs.«168687_j65592740544960_1_alg».proof.Proof.KernelValue
import Idealize.ShloMosaic.Adequacy
import Idealize.ShloMosaic.Init

noncomputable section

namespace Cert.Proof

open Idealize.ShloMosaic Idealize.SL.Sem

/-- The word-level kernel runs and keeps its argument: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its argument: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the four-axis covariance of the argument. -/
theorem algebraic : Cert.algebraic_KernelIdeal_ReferenceIdeal := by
  intro m ρ m' ρ' _ hagree
  refine ⟨fun c => Cert.Cov.cov4 (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_is_cov4, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
